-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) (main_arg4 : IVec S_ 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1 : Shape := ⟨1, ![1]⟩
abbrev S1x128 : Shape := ⟨2, ![1, 128]⟩
abbrev S400x10000 : Shape := ⟨2, ![400, 10000]⟩
abbrev S400x128 : Shape := ⟨2, ![400, 128]⟩

abbrev nBuf : Space → Nat
  | .hbm => 8
  | .vmem => 8
  | .smem => 1
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S1, .i32⟩
  | .hbm, ⟨6, _⟩ => ⟨S1x128, .f32⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | .local _ .smem, ⟨0, _⟩ => ⟨S1, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v16 : BitVec 32 := Scalar.muli arg0 c400_i32
  let v17 : Index := Scalar.indexCast v16
  let c0_11 : Index := 0#32
  ![v17.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S_S1 : S_.ShapeCasts S1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1_S1_0 : ∀ a, (![0] : Fin 1 → Nat) a + S1.size a ≤ S1.size a
  numel1_S1 : S1.numel = 1
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .i32 = 32 ∨ (Rect.block (s := S1) S1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S1.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .i32⟩
  | .hbm, ⟨14, _⟩ => ⟨S_, .i1⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KConds.lean ====
/-
  The branch conditions of the fused body and the memrefs the pipeline hands it.

  The body branches three times: on "this is the grid's first point" (a function of the coordinate alone) and twice
  on the selector word it reads from its one-word SMEM window — "the word is zero" (the dense branch: adj · tmp + bias)
  and "the word is not zero" (the identity branch: tmp's own rows + bias). The two word conditions are
  complementary: exactly one of them holds of any 32-bit word, so every point stores its output block once.
  The scratch operand is a whole scoped buffer of the kernel's own; the region's invariant holds it at some
  contents, together with the generator register.
-/
import proofs.«112793_g16724602650838_cont_sun_m_594_23_alg».proof.Proof.Gen.Kernel.Frame
import proofs.«112793_g16724602650838_cont_sun_m_594_23_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "The point is the grid's first": the coordinate compared with zero, as the body computes it. -/
abbrev atFirst (i : grid0.Coords) : Prop :=
  (Scalar.cmpi .ne (Scalar.extui (Scalar.cmpi .eq (BitVec.ofNat 32 (i 0).val) 0#32)) 0#32) = 1#1

/-- It holds at point 0 and at no other of the 25 points. -/
theorem atFirst_iff : ∀ t : Fin cfg0.N, atFirst (grid0.coords t) ↔ t.val = 0 :=
  (by decide +kernel : ∀ t : Fin grid0.N, atFirst (grid0.coords t) ↔ t.val = 0)

/-- "The selector word is zero", as the body computes it: the dense branch is taken. -/
abbrev isDense (v : BitVec 32) : Prop :=
  (Scalar.cmpi .ne (Scalar.extui (Scalar.cmpi .eq v 0#32)) 0#32) = 1#1

/-- "The selector word is not zero", as the body computes it: the identity branch is taken. -/
abbrev isEye (v : BitVec 32) : Prop :=
  (Scalar.cmpi .ne (Scalar.extui (Scalar.cmpi .ne v 0#32)) 0#32) = 1#1

theorem isDense_iff (v : BitVec 32) : isDense v ↔ v = 0#32 := by
  unfold isDense
  by_cases h : v = 0#32
  · subst h; decide
  · have hb : (v == 0#32) = false := beq_eq_false_iff_ne.mpr h
    simp only [Scalar.cmpi, Scalar.extui, IntOp.cmpi, hb]; simp [h]

theorem isEye_iff (v : BitVec 32) : isEye v ↔ v ≠ 0#32 := by
  unfold isEye
  by_cases h : v = 0#32
  · subst h; decide
  · have hb : (v == 0#32) = false := beq_eq_false_iff_ne.mpr h
    simp only [Scalar.cmpi, Scalar.extui, IntOp.cmpi, bne, hb]; simp [h]

/-- A zero word takes the dense branch and not the identity branch; -/
theorem not_isEye_of_isDense {v : BitVec 32} (h : isDense v) : ¬ isEye v :=
  fun h' => (isEye_iff v).mp h' ((isDense_iff v).mp h)

/-- a nonzero word the identity branch and not the dense one. -/
theorem isEye_of_not_isDense {v : BitVec 32} (h : ¬ isDense v) : isEye v :=
  (isEye_iff v).mpr fun e => h ((isDense_iff v).mpr e)

/-- The zero offsets of a rank-2 rectangle, however spelt. -/
theorem hz2 : (![0, 0] : Fin 2 → ℕ) = fun _ => 0 := by
  funext a; match a with | ⟨0, _⟩ => rfl | ⟨1, _⟩ => rfl

/-- Each window's current staging memref at point `t`, as the pipeline passes it to the body, and its wholeness. -/
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)

/-- The scratch operand: the product input · weight, kept from the first point on. -/
abbrev scM : Memref sig .tc .vmem S10000x128 .bf16 := Memref.whole cc0_scratch0

/-- The class's region invariant, spelt out: the scratch owned at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KRunFirstDense.lean ====
/-
  The body at the grid's first point when the selector word is zero.

  It multiplies the whole input by the whole weight matrix and stores the product (cast to bf16) over the scratch, whatever the scratch held; then multiplies the point's slab of adj by that scratch
  and stores the product plus the bias row over the output block. The scratch is left at input · weight.
-/
import proofs.«112793_g16724602650838_cont_sun_m_594_23_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_first_dense (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : atFirst i)
    (x0 : Vec F S1 .i32) (x1 : Vec F S10000x128 .f32) (x2 : Vec F S128x128 .f32) (x3 : Vec F S400x10000 .f32) (x4 : Vec F S1x128 .f32)
    (hc1 : isDense (arg1.view.readAt (Elt F) (Rect.unit (s := S1) ![0] S1.size inb_S1_S1_0).toLoadRect (harg1.unread x0) (Shape.Idx.first (numel1_S1.symm ▸ Nat.one_pos)))) (hc2 : ¬ isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x3 (k0_pay1 x1 x2) x4) ∗ owns (c : Thread nD τ) arg7 fullShare (k0_pay1 x1 x2)) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      sl_unfold_words
      rw [View.readCov_unit_zero (S := S10000x128) _ hz2]
      simp only [View.readAt_eq_ld, harg2.read_unread, harg3.read_unread, harg4.read_unread, harg5.read_unread, View.ld_unit_zero (S := S10000x128) hz2, View.ld_unit_zero (S := S128x128) hz2, View.ld_unit_zero (S := S400x10000) hz2, View.ld_unit_zero (S := S1x128) hz2]
    iexists _; isplitr; swap; · iexact HS0
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, harg2.read_unread, harg3.read_unread, View.ld_unit_zero (S := S10000x128) hz2, View.ld_unit_zero (S := S128x128) hz2]

end Cert.Kernel.Body

end
-- ==== Proof.KRunFirstEye.lean ====
/-
  The body at the grid's first point when the selector word is not zero.

  It multiplies the whole input by the whole weight matrix and stores the product over the scratch; then stores over
  the output block the scratch's rows of the point's row range plus the bias row. (The dense product adj · scratch is
  computed and dropped.) The scratch is left at input · weight.
-/
import proofs.«112793_g16724602650838_cont_sun_m_594_23_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_first_eye (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : atFirst i)
    (x0 : Vec F S1 .i32) (x1 : Vec F S10000x128 .f32) (x2 : Vec F S128x128 .f32) (x3 : Vec F S400x10000 .f32) (x4 : Vec F S1x128 .f32)
    (hc1 : ¬ isDense (arg1.view.readAt (Elt F) (Rect.unit (s := S1) ![0] S1.size inb_S1_S1_0).toLoadRect (harg1.unread x0) (Shape.Idx.first (numel1_S1.symm ▸ Nat.one_pos)))) (hc2 : isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x4 (View.ld (k0_pay1 x1 x2) (Rect.unit (s := S10000x128) (k0_off1 i) S400x128.size (k0_off1_inb i)))) ∗ owns (c : Thread nD τ) arg7 fullShare (k0_pay1 x1 x2)) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      unfold run_first_eye.sl.v18 run_first_eye.sl.HS0_1
      simp only [View.readAt_eq_ld]
      rw [View.read_writes_eq_canon _ _ _ (fun y => ⟨_, List.mem_singleton_self _, View.mem_set_unit_zero hz2 inb_S10000x128_S10000x128_0_0 y⟩), View.canon_unit_zero hz2]
      simp only [View.readAt_eq_ld, harg2.read_unread, harg3.read_unread, harg4.read_unread, harg5.read_unread, View.ld_unit_zero (S := S10000x128) hz2, View.ld_unit_zero (S := S128x128) hz2, View.ld_unit_zero (S := S400x10000) hz2, View.ld_unit_zero (S := S1x128) hz2]
    iexists _; isplitr; swap; · iexact HS0
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, harg2.read_unread, harg3.read_unread, View.ld_unit_zero (S := S10000x128) hz2, View.ld_unit_zero (S := S128x128) hz2]

end Cert.Kernel.Body

end
-- ==== Proof.KRunLaterDense.lean ====
/-
  The body at a later grid point when the selector word is zero.

  The scratch holds what the first point left; the body multiplies the point's slab of adj by it and stores the product
  plus the bias row over the output block. The scratch is handed back untouched.
-/
import proofs.«112793_g16724602650838_cont_sun_m_594_23_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_later_dense (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬ atFirst i)
    (x0 : Vec F S1 .i32) (x1 : Vec F S10000x128 .f32) (x2 : Vec F S128x128 .f32) (x3 : Vec F S400x10000 .f32) (x4 : Vec F S1x128 .f32) (xs : Vec F S10000x128 .bf16)
    (hc1 : isDense (arg1.view.readAt (Elt F) (Rect.unit (s := S1) ![0] S1.size inb_S1_S1_0).toLoadRect (harg1.unread x0) (Shape.Idx.first (numel1_S1.symm ▸ Nat.one_pos)))) (hc2 : ¬ isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x3 xs x4) ∗ owns (c : Thread nD τ) arg7 fullShare xs) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      simp only [View.readAt_eq_ld, harg2.read_unread, harg3.read_unread, harg4.read_unread, harg5.read_unread, harg7.read_unread, View.ld_unit_zero (S := S10000x128) hz2, View.ld_unit_zero (S := S128x128) hz2, View.ld_unit_zero (S := S400x10000) hz2, View.ld_unit_zero (S := S1x128) hz2]
    iexists _; isplitr; · ipureintro; exact harg7.read_unread _
    iexact HS0

end Cert.Kernel.Body

end
-- ==== Proof.KRunLaterEye.lean ====
/-
  The body at a later grid point when the selector word is not zero.

  The scratch holds what the first point left; the body stores over the output block the scratch's rows of the point's
  row range plus the bias row. The scratch is handed back untouched.
-/
import proofs.«112793_g16724602650838_cont_sun_m_594_23_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_later_eye (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬ atFirst i)
    (x0 : Vec F S1 .i32) (x1 : Vec F S10000x128 .f32) (x2 : Vec F S128x128 .f32) (x3 : Vec F S400x10000 .f32) (x4 : Vec F S1x128 .f32) (xs : Vec F S10000x128 .bf16)
    (hc1 : ¬ isDense (arg1.view.readAt (Elt F) (Rect.unit (s := S1) ![0] S1.size inb_S1_S1_0).toLoadRect (harg1.unread x0) (Shape.Idx.first (numel1_S1.symm ▸ Nat.one_pos)))) (hc2 : isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x4 (View.ld xs (Rect.unit (s := S10000x128) (k0_off1 i) S400x128.size (k0_off1_inb i)))) ∗ owns (c : Thread nD τ) arg7 fullShare xs) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      simp only [View.readAt_eq_ld, harg2.read_unread, harg3.read_unread, harg4.read_unread, harg5.read_unread, harg7.read_unread, View.ld_unit_zero (S := S10000x128) hz2, View.ld_unit_zero (S := S128x128) hz2, View.ld_unit_zero (S := S400x10000) hz2, View.ld_unit_zero (S := S1x128) hz2]
    iexists _; isplitr; · ipureintro; exact harg7.read_unread _
    iexact HS0

end Cert.Kernel.Body

end
-- ==== Proof.KData.lean ====
/-
  The proof data of the fused layer's one pipeline, its body obligation, and the run.

  The scratch carries ONE value across the grid: before the first point it holds anything; the first point stores
  tmp = input · weight into it, and every later point finds tmp there and leaves it. So the region's invariant before
  point n is "the scratch at anything" for n = 0 and "the scratch at tmp" afterwards. After point t the output's staging
  buffer holds, when the selector word is zero, (adj's slab t) · tmp + bias, and otherwise tmp's rows of slab t + bias.
  The body obligation is a case split on "first point or not" and on the selector word; each leaf is that case's run.
-/
import proofs.«112793_g16724602650838_cont_sun_m_594_23_alg».proof.Proof.KRunFirstDense
import proofs.«112793_g16724602650838_cont_sun_m_594_23_alg».proof.Proof.KRunFirstEye
import proofs.«112793_g16724602650838_cont_sun_m_594_23_alg».proof.Proof.KRunLaterDense
import proofs.«112793_g16724602650838_cont_sun_m_594_23_alg».proof.Proof.KRunLaterEye

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, lt_of_lt_of_eq (by decide : 0 < 25) N_0.symm⟩

/-- The selector word the body reads at point `t`: the one word of its SMEM window's block. -/
abbrev selAt (c : Dev nD) (t : Fin cfg0.N) : BitVec 32 :=
  (ms0 t).view.readAt (Elt F) (Rect.unit (s := S1) ![0] S1.size inb_S1_S1_0).toLoadRect ((hs0 t).unread (iblk m c 0 t)) (Shape.Idx.first (numel1_S1.symm ▸ Nat.one_pos))

/-- What the first point leaves in the scratch: the input block times the weight block. -/
def tmpOf (c : Dev nD) : Vec F S10000x128 .bf16 := k0_pay1 (iblk m c 1 t0) (iblk m c 2 t0)

/-- What point `t` leaves in the output's staging buffer: by the selector word, the dense product plus the bias row,
    or the scratch's rows of the point's range plus the bias row. -/
def outAt (c : Dev nD) (t : Fin cfg0.N) : Vec F S400x128 .f32 :=
  if isDense (selAt m c t) then k0_pay3 (iblk m c 3 t) (tmpOf m c) (iblk m c 4 t)
  else k0_pay4 (iblk m c 4 t) (View.ld (tmpOf m c) (Rect.unit (s := S10000x128) (k0_off1 (grid0.coords t)) S400x128.size (k0_off1_inb (grid0.coords t))))

theorem outAt_dense (c : Dev nD) (t : Fin cfg0.N) (h : isDense (selAt m c t)) :
    outAt m c t = k0_pay3 (iblk m c 3 t) (tmpOf m c) (iblk m c 4 t) := by
  unfold outAt; exact if_pos h

theorem outAt_eye (c : Dev nD) (t : Fin cfg0.N) (h : ¬ isDense (selAt m c t)) :
    outAt m c t = k0_pay4 (iblk m c 4 t) (View.ld (tmpOf m c) (Rect.unit (s := S10000x128) (k0_off1 (grid0.coords t)) S400x128.size (k0_off1_inb (grid0.coords t)))) := by
  unfold outAt; exact if_neg h

/-- The region's invariant before position `n`: the class's before the first point (the scratch at anything), afterwards
    the scratch at input · weight; the generator register at some state throughout. -/
def PhiS (c : Dev nD) : ℕ → sProp 𝕄
  | 0 => Pipeline.ΦA spec0 c
  | _ + 1 => iprop(owns (c : Thread nD τ) scM fullShare (tmpOf m c) ∗ (∃ r, prngReg c r))

theorem PhiS_pos (c : Dev nD) (n : ℕ) (hn : n ≠ 0) :
    PhiS m c n = iprop(owns (c : Thread nD τ) scM fullShare (tmpOf m c) ∗ (∃ r, prngReg c r)) := by
  cases n with
  | zero => exact absurd rfl hn
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 3200000 in
/-- The body at any point: first point or later, selector word zero or not; each leaf is that case's run, the scratch
    taken from the invariant (at anything before the first point, at input · weight later) and given back at input · weight. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.succ = PhiS m c (t.val + 1) from rfl,
    show (dats m 0 c).Φ t.castSucc = PhiS m c t.val from rfl]
  rw [show PhiS m c (t.val + 1) = iprop(owns (c : Thread nD τ) scM fullShare (tmpOf m c) ∗ (∃ r, prngReg c r)) from rfl]
  by_cases h0 : t.val = 0
  · obtain rfl : t = t0 := Fin.ext h0
    rw [show PhiS m c (t0 : Fin cfg0.N).val = Pipeline.ΦA spec0 c from rfl, PhiA_eq]
    by_cases h1 : isDense (selAt m c t0)
    · rw [outAt_dense m c t0 h1]
      unfold tmpOf
      iintro ⟨⟨HS0, Hg⟩, Ho, ⟨%d0, H0⟩, ⟨%d1, H1⟩, ⟨%d2, H2⟩, ⟨%d3, H3⟩, ⟨%d4, H4⟩, ⟨%d5, H5⟩⟩
      iapply ((run_first_dense c (grid0.coords t0) _ _ _ _ _ _ _ _ _ _ _ _ _ _ ((atFirst_iff t0).mpr rfl) (iblk m c 0 t0) (iblk m c 1 t0) (iblk m c 2 t0) (iblk m c 3 t0) (iblk m c 4 t0) h1 (not_isEye_of_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [outAt_eye m c t0 h1]
      unfold tmpOf
      iintro ⟨⟨HS0, Hg⟩, Ho, ⟨%d0, H0⟩, ⟨%d1, H1⟩, ⟨%d2, H2⟩, ⟨%d3, H3⟩, ⟨%d4, H4⟩, ⟨%d5, H5⟩⟩
      iapply ((run_first_eye c (grid0.coords t0) _ _ _ _ _ _ _ _ _ _ _ _ _ _ ((atFirst_iff t0).mpr rfl) (iblk m c 0 t0) (iblk m c 1 t0) (iblk m c 2 t0) (iblk m c 3 t0) (iblk m c 4 t0) h1 (isEye_of_not_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [PhiS_pos m c t.val h0]
    by_cases h1 : isDense (selAt m c t)
    · rw [outAt_dense m c t h1]
      iintro ⟨⟨HS0, Hg⟩, Ho, ⟨%d0, H0⟩, ⟨%d1, H1⟩, ⟨%d2, H2⟩, ⟨%d3, H3⟩, ⟨%d4, H4⟩, ⟨%d5, H5⟩⟩
      iapply ((run_later_dense c (grid0.coords t) _ _ _ _ _ _ _ _ _ _ _ _ _ _ (fun h => h0 ((atFirst_iff t).mp h)) (iblk m c 0 t) (iblk m c 1 t) (iblk m c 2 t) (iblk m c 3 t) (iblk m c 4 t) (tmpOf m c) h1 (not_isEye_of_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [outAt_eye m c t h1]
      iintro ⟨⟨HS0, Hg⟩, Ho, ⟨%d0, H0⟩, ⟨%d1, H1⟩, ⟨%d2, H2⟩, ⟨%d3, H3⟩, ⟨%d4, H4⟩, ⟨%d5, H5⟩⟩
      iapply ((run_later_eye c (grid0.coords t) _ _ _ _ _ _ _ _ _ _ _ _ _ _ (fun h => h0 ((atFirst_iff t).mp h)) (iblk m c 0 t) (iblk m c 1 t) (iblk m c 2 t) (iblk m c 3 t) (iblk m c 4 t) (tmpOf m c) h1 (isEye_of_not_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, show cfg0.N = 25 from N_0]; decide), PhiA_eq]
  iintro ⟨HS0, Hg⟩
  isplitl [HS0]
  · iexists _; iexact HS0
  iexact Hg

set_option backward.isDefEq.respectTransparency.types false in
/-- Every weakly fair execution of @main terminates, and every final state has each array of the pipeline at what the
    library computes from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates and the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KIConds.lean ====
/-
  The branch conditions of the fused body and the memrefs the pipeline hands it.

  The body branches three times: on "this is the grid's first point" (a function of the coordinate alone) and twice
  on the selector word it reads from its one-word SMEM window — "the word is zero" (the dense branch: adj · tmp + bias)
  and "the word is not zero" (the identity branch: tmp's own rows + bias). The two word conditions are
  complementary: exactly one of them holds of any 32-bit word, so every point stores its output block once.
  The scratch operand is a whole scoped buffer of the kernel's own; the region's invariant holds it at some
  contents, together with the generator register.
-/
import proofs.«112793_g16724602650838_cont_sun_m_594_23_alg».proof.Proof.Gen.KernelIdeal.Frame
import proofs.«112793_g16724602650838_cont_sun_m_594_23_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "The point is the grid's first": the coordinate compared with zero, as the body computes it. -/
abbrev atFirst (i : grid0.Coords) : Prop :=
  (Scalar.cmpi .ne (Scalar.extui (Scalar.cmpi .eq (BitVec.ofNat 32 (i 0).val) 0#32)) 0#32) = 1#1

/-- It holds at point 0 and at no other of the 25 points. -/
theorem atFirst_iff : ∀ t : Fin cfg0.N, atFirst (grid0.coords t) ↔ t.val = 0 :=
  (by decide +kernel : ∀ t : Fin grid0.N, atFirst (grid0.coords t) ↔ t.val = 0)

/-- "The selector word is zero", as the body computes it: the dense branch is taken. -/
abbrev isDense (v : BitVec 32) : Prop :=
  (Scalar.cmpi .ne (Scalar.extui (Scalar.cmpi .eq v 0#32)) 0#32) = 1#1

/-- "The selector word is not zero", as the body computes it: the identity branch is taken. -/
abbrev isEye (v : BitVec 32) : Prop :=
  (Scalar.cmpi .ne (Scalar.extui (Scalar.cmpi .ne v 0#32)) 0#32) = 1#1

theorem isDense_iff (v : BitVec 32) : isDense v ↔ v = 0#32 := by
  unfold isDense
  by_cases h : v = 0#32
  · subst h; decide
  · have hb : (v == 0#32) = false := beq_eq_false_iff_ne.mpr h
    simp only [Scalar.cmpi, Scalar.extui, IntOp.cmpi, hb]; simp [h]

theorem isEye_iff (v : BitVec 32) : isEye v ↔ v ≠ 0#32 := by
  unfold isEye
  by_cases h : v = 0#32
  · subst h; decide
  · have hb : (v == 0#32) = false := beq_eq_false_iff_ne.mpr h
    simp only [Scalar.cmpi, Scalar.extui, IntOp.cmpi, bne, hb]; simp [h]

/-- A zero word takes the dense branch and not the identity branch; -/
theorem not_isEye_of_isDense {v : BitVec 32} (h : isDense v) : ¬ isEye v :=
  fun h' => (isEye_iff v).mp h' ((isDense_iff v).mp h)

/-- a nonzero word the identity branch and not the dense one. -/
theorem isEye_of_not_isDense {v : BitVec 32} (h : ¬ isDense v) : isEye v :=
  (isEye_iff v).mpr fun e => h ((isDense_iff v).mpr e)

/-- The zero offsets of a rank-2 rectangle, however spelt. -/
theorem hz2 : (![0, 0] : Fin 2 → ℕ) = fun _ => 0 := by
  funext a; match a with | ⟨0, _⟩ => rfl | ⟨1, _⟩ => rfl

/-- Each window's current staging memref at point `t`, as the pipeline passes it to the body, and its wholeness. -/
abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)

/-- The scratch operand: the product input · weight, kept from the first point on. -/
abbrev scM : Memref sig .tc .vmem S10000x128 .bf16 := Memref.whole cc0_scratch0

/-- The class's region invariant, spelt out: the scratch owned at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KIRunFirstDense.lean ====
/-
  The body at the grid's first point when the selector word is zero.

  It multiplies the whole input by the whole weight matrix and stores the product (cast to bf16, the identity on the
  extended reals) over the scratch, whatever the scratch held; then multiplies the point's slab of adj by that scratch
  and stores the product plus the bias row over the output block. The scratch is left at input · weight.
-/
import proofs.«112793_g16724602650838_cont_sun_m_594_23_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_first_dense (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : atFirst i)
    (x0 : Vec F S1 .i32) (x1 : Vec F S10000x128 .f32) (x2 : Vec F S128x128 .f32) (x3 : Vec F S400x10000 .f32) (x4 : Vec F S1x128 .f32)
    (hc1 : isDense (arg1.view.readAt (Elt F) (Rect.unit (s := S1) ![0] S1.size inb_S1_S1_0).toLoadRect (harg1.unread x0) (Shape.Idx.first (numel1_S1.symm ▸ Nat.one_pos)))) (hc2 : ¬ isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x3 (k0_pay1 x1 x2) x4) ∗ owns (c : Thread nD τ) arg7 fullShare (k0_pay1 x1 x2)) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      sl_unfold_words
      rw [View.readCov_unit_zero (S := S10000x128) _ hz2]
      simp only [View.readAt_eq_ld, harg2.read_unread, harg3.read_unread, harg4.read_unread, harg5.read_unread, View.ld_unit_zero (S := S10000x128) hz2, View.ld_unit_zero (S := S128x128) hz2, View.ld_unit_zero (S := S400x10000) hz2, View.ld_unit_zero (S := S1x128) hz2]
    iexists _; isplitr; swap; · iexact HS0
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, harg2.read_unread, harg3.read_unread, View.ld_unit_zero (S := S10000x128) hz2, View.ld_unit_zero (S := S128x128) hz2]

end Cert.KernelIdeal.Body

end
-- ==== Proof.KIRunFirstEye.lean ====
/-
  The body at the grid's first point when the selector word is not zero.

  It multiplies the whole input by the whole weight matrix and stores the product over the scratch; then stores over
  the output block the scratch's rows of the point's row range plus the bias row. (The dense product adj · scratch is
  computed and dropped.) The scratch is left at input · weight.
-/
import proofs.«112793_g16724602650838_cont_sun_m_594_23_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_first_eye (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : atFirst i)
    (x0 : Vec F S1 .i32) (x1 : Vec F S10000x128 .f32) (x2 : Vec F S128x128 .f32) (x3 : Vec F S400x10000 .f32) (x4 : Vec F S1x128 .f32)
    (hc1 : ¬ isDense (arg1.view.readAt (Elt F) (Rect.unit (s := S1) ![0] S1.size inb_S1_S1_0).toLoadRect (harg1.unread x0) (Shape.Idx.first (numel1_S1.symm ▸ Nat.one_pos)))) (hc2 : isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x4 (View.ld (k0_pay1 x1 x2) (Rect.unit (s := S10000x128) (k0_off1 i) S400x128.size (k0_off1_inb i)))) ∗ owns (c : Thread nD τ) arg7 fullShare (k0_pay1 x1 x2)) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      unfold run_first_eye.sl.v18 run_first_eye.sl.HS0_1
      simp only [View.readAt_eq_ld]
      rw [View.read_writes_eq_canon _ _ _ (fun y => ⟨_, List.mem_singleton_self _, View.mem_set_unit_zero hz2 inb_S10000x128_S10000x128_0_0 y⟩), View.canon_unit_zero hz2]
      simp only [View.readAt_eq_ld, harg2.read_unread, harg3.read_unread, harg4.read_unread, harg5.read_unread, View.ld_unit_zero (S := S10000x128) hz2, View.ld_unit_zero (S := S128x128) hz2, View.ld_unit_zero (S := S400x10000) hz2, View.ld_unit_zero (S := S1x128) hz2]
    iexists _; isplitr; swap; · iexact HS0
    ipureintro
    sl_unfold_words
    rw [View.read_writes_eq_canon _ _ _ (fun y => ⟨_, List.mem_singleton_self _, View.mem_set_unit_zero hz2 inb_S10000x128_S10000x128_0_0 y⟩), View.canon_unit_zero hz2]
    simp only [View.readAt_eq_ld, harg2.read_unread, harg3.read_unread, View.ld_unit_zero (S := S10000x128) hz2, View.ld_unit_zero (S := S128x128) hz2]

end Cert.KernelIdeal.Body

end
-- ==== Proof.KIRunLaterDense.lean ====
/-
  The body at a later grid point when the selector word is zero.

  The scratch holds what the first point left; the body multiplies the point's slab of adj by it and stores the product
  plus the bias row over the output block. The scratch is handed back untouched.
-/
import proofs.«112793_g16724602650838_cont_sun_m_594_23_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_later_dense (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬ atFirst i)
    (x0 : Vec F S1 .i32) (x1 : Vec F S10000x128 .f32) (x2 : Vec F S128x128 .f32) (x3 : Vec F S400x10000 .f32) (x4 : Vec F S1x128 .f32) (xs : Vec F S10000x128 .bf16)
    (hc1 : isDense (arg1.view.readAt (Elt F) (Rect.unit (s := S1) ![0] S1.size inb_S1_S1_0).toLoadRect (harg1.unread x0) (Shape.Idx.first (numel1_S1.symm ▸ Nat.one_pos)))) (hc2 : ¬ isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x3 xs x4) ∗ owns (c : Thread nD τ) arg7 fullShare xs) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      simp only [View.readAt_eq_ld, harg2.read_unread, harg3.read_unread, harg4.read_unread, harg5.read_unread, harg7.read_unread, View.ld_unit_zero (S := S10000x128) hz2, View.ld_unit_zero (S := S128x128) hz2, View.ld_unit_zero (S := S400x10000) hz2, View.ld_unit_zero (S := S1x128) hz2]
    iexists _; isplitr; · ipureintro; exact harg7.read_unread _
    iexact HS0

end Cert.KernelIdeal.Body

end
-- ==== Proof.KIRunLaterEye.lean ====
/-
  The body at a later grid point when the selector word is not zero.

  The scratch holds what the first point left; the body stores over the output block the scratch's rows of the point's
  row range plus the bias row. The scratch is handed back untouched.
-/
import proofs.«112793_g16724602650838_cont_sun_m_594_23_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_later_eye (c : Dev nD) (i : grid0.Coords) (arg1 : Memref sig .tc .smem S1 .i32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬ atFirst i)
    (x0 : Vec F S1 .i32) (x1 : Vec F S10000x128 .f32) (x2 : Vec F S128x128 .f32) (x3 : Vec F S400x10000 .f32) (x4 : Vec F S1x128 .f32) (xs : Vec F S10000x128 .bf16)
    (hc1 : ¬ isDense (arg1.view.readAt (Elt F) (Rect.unit (s := S1) ![0] S1.size inb_S1_S1_0).toLoadRect (harg1.unread x0) (Shape.Idx.first (numel1_S1.symm ▸ Nat.one_pos)))) (hc2 : isEye (arg1.view.readAt (Elt F) (Rect.unit (s := S1) ![0] S1.size inb_S1_S1_0).toLoadRect (harg1.unread x0) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x4 (View.ld xs (Rect.unit (s := S10000x128) (k0_off1 i) S400x128.size (k0_off1_inb i)))) ∗ owns (c : Thread nD τ) arg7 fullShare xs) -∗ K ⟨⟩))
          ⊢ wp frame (wpE (defs₀ (F := F)) Variants.none c none) E (cc0__fused_body i arg1 harg1 arg2 harg2 arg3 harg3 arg4 harg4 arg5 harg5 arg6 harg6 arg7 harg7) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz2 inb_S400x128_S400x128_0_0 y⟩), View.canon_unit_zero hz2]
      simp only [View.readAt_eq_ld, harg2.read_unread, harg3.read_unread, harg4.read_unread, harg5.read_unread, harg7.read_unread, View.ld_unit_zero (S := S10000x128) hz2, View.ld_unit_zero (S := S128x128) hz2, View.ld_unit_zero (S := S400x10000) hz2, View.ld_unit_zero (S := S1x128) hz2]
    iexists _; isplitr; · ipureintro; exact harg7.read_unread _
    iexact HS0

end Cert.KernelIdeal.Body

end
-- ==== Proof.KIData.lean ====
/-
  The proof data of the fused layer's one pipeline, its body obligation, and the run.

  The scratch carries ONE value across the grid: before the first point it holds anything; the first point stores
  tmp = input · weight into it, and every later point finds tmp there and leaves it. So the region's invariant before
  point n is "the scratch at anything" for n = 0 and "the scratch at tmp" afterwards. After point t the output's staging
  buffer holds, when the selector word is zero, (adj's slab t) · tmp + bias, and otherwise tmp's rows of slab t + bias.
  The body obligation is a case split on "first point or not" and on the selector word; each leaf is that case's run.
-/
import proofs.«112793_g16724602650838_cont_sun_m_594_23_alg».proof.Proof.KIRunFirstDense
import proofs.«112793_g16724602650838_cont_sun_m_594_23_alg».proof.Proof.KIRunFirstEye
import proofs.«112793_g16724602650838_cont_sun_m_594_23_alg».proof.Proof.KIRunLaterDense
import proofs.«112793_g16724602650838_cont_sun_m_594_23_alg».proof.Proof.KIRunLaterEye

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, lt_of_lt_of_eq (by decide : 0 < 25) N_0.symm⟩

/-- The selector word the body reads at point `t`: the one word of its SMEM window's block. -/
abbrev selAt (c : Dev nD) (t : Fin cfg0.N) : BitVec 32 :=
  (ms0 t).view.readAt (Elt F) (Rect.unit (s := S1) ![0] S1.size inb_S1_S1_0).toLoadRect ((hs0 t).unread (iblk m c 0 t)) (Shape.Idx.first (numel1_S1.symm ▸ Nat.one_pos))

/-- What the first point leaves in the scratch: the input block times the weight block. -/
def tmpOf (c : Dev nD) : Vec F S10000x128 .bf16 := k0_pay1 (iblk m c 1 t0) (iblk m c 2 t0)

/-- What point `t` leaves in the output's staging buffer: by the selector word, the dense product plus the bias row,
    or the scratch's rows of the point's range plus the bias row. -/
def outAt (c : Dev nD) (t : Fin cfg0.N) : Vec F S400x128 .f32 :=
  if isDense (selAt m c t) then k0_pay3 (iblk m c 3 t) (tmpOf m c) (iblk m c 4 t)
  else k0_pay4 (iblk m c 4 t) (View.ld (tmpOf m c) (Rect.unit (s := S10000x128) (k0_off1 (grid0.coords t)) S400x128.size (k0_off1_inb (grid0.coords t))))

theorem outAt_dense (c : Dev nD) (t : Fin cfg0.N) (h : isDense (selAt m c t)) :
    outAt m c t = k0_pay3 (iblk m c 3 t) (tmpOf m c) (iblk m c 4 t) := by
  unfold outAt; exact if_pos h

theorem outAt_eye (c : Dev nD) (t : Fin cfg0.N) (h : ¬ isDense (selAt m c t)) :
    outAt m c t = k0_pay4 (iblk m c 4 t) (View.ld (tmpOf m c) (Rect.unit (s := S10000x128) (k0_off1 (grid0.coords t)) S400x128.size (k0_off1_inb (grid0.coords t)))) := by
  unfold outAt; exact if_neg h

/-- The region's invariant before position `n`: the class's before the first point (the scratch at anything), afterwards
    the scratch at input · weight; the generator register at some state throughout. -/
def PhiS (c : Dev nD) : ℕ → sProp 𝕄
  | 0 => Pipeline.ΦA spec0 c
  | _ + 1 => iprop(owns (c : Thread nD τ) scM fullShare (tmpOf m c) ∗ (∃ r, prngReg c r))

theorem PhiS_pos (c : Dev nD) (n : ℕ) (hn : n ≠ 0) :
    PhiS m c n = iprop(owns (c : Thread nD τ) scM fullShare (tmpOf m c) ∗ (∃ r, prngReg c r)) := by
  cases n with
  | zero => exact absurd rfl hn
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 3200000 in
/-- The body at any point: first point or later, selector word zero or not; each leaf is that case's run, the scratch
    taken from the invariant (at anything before the first point, at input · weight later) and given back at input · weight. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.succ = PhiS m c (t.val + 1) from rfl,
    show (dats m 0 c).Φ t.castSucc = PhiS m c t.val from rfl]
  rw [show PhiS m c (t.val + 1) = iprop(owns (c : Thread nD τ) scM fullShare (tmpOf m c) ∗ (∃ r, prngReg c r)) from rfl]
  by_cases h0 : t.val = 0
  · obtain rfl : t = t0 := Fin.ext h0
    rw [show PhiS m c (t0 : Fin cfg0.N).val = Pipeline.ΦA spec0 c from rfl, PhiA_eq]
    by_cases h1 : isDense (selAt m c t0)
    · rw [outAt_dense m c t0 h1]
      unfold tmpOf
      iintro ⟨⟨HS0, Hg⟩, Ho, ⟨%d0, H0⟩, ⟨%d1, H1⟩, ⟨%d2, H2⟩, ⟨%d3, H3⟩, ⟨%d4, H4⟩, ⟨%d5, H5⟩⟩
      iapply ((run_first_dense c (grid0.coords t0) _ _ _ _ _ _ _ _ _ _ _ _ _ _ ((atFirst_iff t0).mpr rfl) (iblk m c 0 t0) (iblk m c 1 t0) (iblk m c 2 t0) (iblk m c 3 t0) (iblk m c 4 t0) h1 (not_isEye_of_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [outAt_eye m c t0 h1]
      unfold tmpOf
      iintro ⟨⟨HS0, Hg⟩, Ho, ⟨%d0, H0⟩, ⟨%d1, H1⟩, ⟨%d2, H2⟩, ⟨%d3, H3⟩, ⟨%d4, H4⟩, ⟨%d5, H5⟩⟩
      iapply ((run_first_eye c (grid0.coords t0) _ _ _ _ _ _ _ _ _ _ _ _ _ _ ((atFirst_iff t0).mpr rfl) (iblk m c 0 t0) (iblk m c 1 t0) (iblk m c 2 t0) (iblk m c 3 t0) (iblk m c 4 t0) h1 (isEye_of_not_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [PhiS_pos m c t.val h0]
    by_cases h1 : isDense (selAt m c t)
    · rw [outAt_dense m c t h1]
      iintro ⟨⟨HS0, Hg⟩, Ho, ⟨%d0, H0⟩, ⟨%d1, H1⟩, ⟨%d2, H2⟩, ⟨%d3, H3⟩, ⟨%d4, H4⟩, ⟨%d5, H5⟩⟩
      iapply ((run_later_dense c (grid0.coords t) _ _ _ _ _ _ _ _ _ _ _ _ _ _ (fun h => h0 ((atFirst_iff t).mp h)) (iblk m c 0 t) (iblk m c 1 t) (iblk m c 2 t) (iblk m c 3 t) (iblk m c 4 t) (tmpOf m c) h1 (not_isEye_of_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [outAt_eye m c t h1]
      iintro ⟨⟨HS0, Hg⟩, Ho, ⟨%d0, H0⟩, ⟨%d1, H1⟩, ⟨%d2, H2⟩, ⟨%d3, H3⟩, ⟨%d4, H4⟩, ⟨%d5, H5⟩⟩
      iapply ((run_later_eye c (grid0.coords t) _ _ _ _ _ _ _ _ _ _ _ _ _ _ (fun h => h0 ((atFirst_iff t).mp h)) (iblk m c 0 t) (iblk m c 1 t) (iblk m c 2 t) (iblk m c 3 t) (iblk m c 4 t) (tmpOf m c) h1 (isEye_of_not_isDense h1)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, show cfg0.N = 25 from N_0]; decide), PhiA_eq]
  iintro ⟨HS0, Hg⟩
  isplitl [HS0]
  · iexists _; iexact HS0
  iexact Hg

set_option backward.isDefEq.respectTransparency.types false in
/-- Every weakly fair execution of @main terminates, and every final state has each array of the pipeline at what the
    library computes from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates and the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«112793_g16724602650838_cont_sun_m_594_23_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KIPayload.lean ====
/-
  The body's three payloads read at an entry, on the extended reals.

  The first point's product: (input · weight) (p, q) = ∑ l, input (p, l) · weight (l, q); the cast to bf16 is the identity.
  The dense branch's block: (adj's slab · scratch) (r, q) + bias q. The identity branch's block: the loaded scratch rows
  at (r, q) + bias q. The bias row reaches (r, q) through a cast to its own shape and a broadcast down the block's rows.
-/
import proofs.«112793_g16724602650838_cont_sun_m_594_23_alg».proof.Proof.Gen.KernelIdeal.Skeleton
import proofs.«112793_g16724602650838_cont_sun_m_594_23_alg».proof.Proof.LibDotRecord
import Idealize.ShloMosaic.Lib.ValueLayout
import Idealize.ShloMosaic.Lib.Pipeline.Value

noncomputable section

namespace Cert.KernelIdeal.KValue

open Idealize.ShloMosaic Idealize.ShloMosaic.ValueIdx
open Cert.KernelIdeal Cert.KernelIdeal.Gen

/-- The bias row, cast to its own shape and broadcast over the block, at (r, q) is the row's entry q. -/
theorem biasRow_apply (x4 : Vec Ideal S1x128 .f32) (r : Fin 400) (q : Fin 128) :
    broadcastTo S400x128 (k0_pay2 (F := Ideal) x4) broadcasts_S1x128_S400x128 (ix2 r q) = x4 (ix2 (0 : Fin 1) q) := by
  unfold k0_pay2
  refine (broadcastTo_1b_ab_apply _ broadcasts_S1x128_S400x128 r q).trans ?_
  exact congrFun (shapeCast_self x4 shapeCasts_S1x128_S1x128) _

/-- The first point's product at (p, q). -/
theorem pay1_apply (x1 : Vec Ideal S10000x128 .f32) (x2 : Vec Ideal S128x128 .f32) (p : Fin 10000) (q : Fin 128) :
    k0_pay1 (F := Ideal) x1 x2 (ix2 p q) = ∑ l : Fin 128, x1 (ix2 p l) * x2 (ix2 l q) := by
  unfold k0_pay1
  refine (congrFun (shapeCast_self _ shapeCasts_S10000x128_S10000x128) _).trans ?_
  exact DotRecord.matmul_zero_apply (φ₁ := .f32) (φ₂ := .f32) dot_S10000x128_S128x128_S10000x128_1_0_0_1_n_n rfl rfl rfl rfl rfl rfl x1 x2 none p q

/-- The dense branch's block at (r, q). -/
theorem pay3_apply (x3 : Vec Ideal S400x10000 .f32) (S : Vec Ideal S10000x128 .bf16) (x4 : Vec Ideal S1x128 .f32)
    (r : Fin 400) (q : Fin 128) :
    k0_pay3 (F := Ideal) x3 S x4 (ix2 r q) = (∑ k : Fin 10000, x3 (ix2 r k) * S (ix2 k q)) + x4 (ix2 (0 : Fin 1) q) := by
  unfold k0_pay3
  exact congr (congrArg (· + ·)
    (DotRecord.matmul_zero_apply (φ₁ := .bf16) (φ₂ := .bf16) dot_S400x10000_S10000x128_S400x128_1_0_0_1_n_n rfl rfl rfl rfl rfl rfl
      (truncf .bf16 x3 bitsLt_bf16_f32) S none r q)) (biasRow_apply x4 r q)

/-- The identity branch's block at (r, q). -/
theorem pay4_apply (x4 : Vec Ideal S1x128 .f32) (v : Vec Ideal S400x128 .bf16) (r : Fin 400) (q : Fin 128) :
    k0_pay4 (F := Ideal) x4 v (ix2 r q) = v (ix2 r q) + x4 (ix2 (0 : Fin 1) q) := by
  unfold k0_pay4
  exact congrArg (v (ix2 r q) + ·) (biasRow_apply x4 r q)

end Cert.KernelIdeal.KValue

end
-- ==== Proof.Spec.lean ====
/-
  The layer both programs compute, as one function of the argument arrays on the extended reals.

  With X the [10000, 128] input, W the [128, 128] weight, A the [10000, 10000] adjacency, b the bias and e the selector
  word: tmp = X · W, and the result at (p, q) is tmp (p, q) + b q when e is not zero, and (A · tmp) (p, q) + b q when
  e is zero. Each product is the plain sum over the contracted coordinate; a change of float format is the identity,
  so no rounding of tmp appears.
-/
import Idealize.ShloMosaic.PureOps.Ideal
import Idealize.ShloMosaic.Lib.ValueIdx

noncomputable section

namespace Krylov

open Idealize.ShloMosaic Idealize.ShloMosaic.ValueIdx

/-- tmp = X · W at entry (p, q). -/
def tmp (X : FVec Ideal ⟨2, ![10000, 128]⟩ .f32) (W : FVec Ideal ⟨2, ![128, 128]⟩ .f32) (p : Fin 10000) (q : Fin 128) : EReal :=
  ∑ l : Fin 128, X (ix2 p l) * W (ix2 l q)

/-- The layer's result: by the selector word, A · tmp + b or tmp + b. -/
def layer (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) (e : BitVec 32) :
    FVec Ideal ⟨2, ![10000, 128]⟩ .f32 :=
  fun j => if e = 0#32 then (∑ k : Fin 10000, A (ix2 (j 0) k) * tmp X W k (j 1)) + b (ix1 (j 1))
    else tmp X W (j 0) (j 1) + b (ix1 (j 1))

theorem layer_dense (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) (e : BitVec 32) (he : e = 0#32)
    (p : Fin 10000) (q : Fin 128) :
    layer X A W b e (ix2 p q) = (∑ k : Fin 10000, A (ix2 p k) * tmp X W k q) + b (ix1 q) := by
  unfold layer; exact if_pos he

theorem layer_eye (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) (e : BitVec 32) (he : ¬ e = 0#32)
    (p : Fin 10000) (q : Fin 128) :
    layer X A W b e (ix2 p q) = tmp X W p q + b (ix1 q) := by
  unfold layer; exact if_neg he

end Krylov

end
-- ==== Proof.KIValue.lean ====
/-
  The idealized kernel's result array is the layer of the argument arrays.

  Window 5's block at point t is rows 400·t … 400·t + 399 of the result, and the 25 blocks tile it. The input and weight
  windows are the whole arrays at every point, adj's window at point t is rows 400·t … of adj, the bias window is the
  bias recast as a row, and the selector window's one word is the selector recast as a one-element array. So what
  point t writes back — the dense product plus bias, or tmp's rows plus bias, by the selector word — is, entry by
  entry, the layer's block t; and the array after the run is the layer.
-/
import proofs.«112793_g16724602650838_cont_sun_m_594_23_alg».proof.Proof.KIData
import proofs.«112793_g16724602650838_cont_sun_m_594_23_alg».proof.Proof.KIPayload
import proofs.«112793_g16724602650838_cont_sun_m_594_23_alg».proof.Proof.Spec
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (m : (ℓ : Loc nD τ sig) → Buf (Elt Ideal) ℓ) (ρ : Dev nD → PrngReg)

/-- The argument arrays as launched. -/
abbrev argX (c : Dev nD) : Vec Ideal S10000x128 .f32 := m ((c.tc : Thread nD τ).loc main_arg0)
abbrev argA (c : Dev nD) : Vec Ideal S10000x10000 .f32 := m ((c.tc : Thread nD τ).loc main_arg1)
abbrev argW (c : Dev nD) : Vec Ideal S128x128 .f32 := m ((c.tc : Thread nD τ).loc main_arg2)
abbrev argB (c : Dev nD) : Vec Ideal S128 .f32 := m ((c.tc : Thread nD τ).loc main_arg3)
abbrev argE (c : Dev nD) : BitVec 32 := (m ((c.tc : Thread nD τ).loc main_arg4) : S_.Idx → BitVec 32) ix0

/-- The layer of the argument arrays, as contents of the result array. -/
def G (c : Dev nD) : Buf (Elt Ideal) ((c.tc : Thread nD τ).loc main_v2) :=
  Krylov.layer (argX m c) (argA m c) (argW m c) (argB m c) (argE m c)

/-- The printed index maps and the scratch load's row offset, decided over the 25 points. -/
theorem idx_facts : ∀ t : Fin cfg0.N,
    win0_0.index t (0 : Fin 1) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 400 * t.val ∧ k0_off1 (grid0.coords t) (1 : Fin 2) = 0 :=
  (by decide +kernel : ∀ t : Fin grid0.N, _)

/-! ## The windows' blocks, read at an entry -/

/-- The input window's block is the whole input. -/
theorem blk1_apply (c : Dev nD) (t : Fin cfg0.N) (p : Fin 10000) (l : Fin 128) :
    (iblk m c 1 t : Vec Ideal S10000x128 .f32) (ix2 p l) = argX m c (ix2 p l) := by
  obtain ⟨-, e0, e1, -⟩ := idx_facts t
  show V m c main_arg0 (((cfg0.win 1).blk t).view.emb (ix2 p l)) = _
  rw [V_main_arg0 m c]
  refine congrArg _ (funext fun a => Fin.ext ?_)
  match a with
  | ⟨0, _⟩ => show win0_1.index t (0 : Fin 2) * 10000 + 1 * p.val = p.val; rw [e0]; omega
  | ⟨1, _⟩ => show win0_1.index t (1 : Fin 2) * 128 + 1 * l.val = l.val; rw [e1]; omega

/-- The weight window's block is the whole weight matrix. -/
theorem blk2_apply (c : Dev nD) (t : Fin cfg0.N) (l q : Fin 128) :
    (iblk m c 2 t : Vec Ideal S128x128 .f32) (ix2 l q) = argW m c (ix2 l q) := by
  obtain ⟨-, -, -, e0, e1, -⟩ := idx_facts t
  show V m c main_arg2 (((cfg0.win 2).blk t).view.emb (ix2 l q)) = _
  rw [V_main_arg2 m c]
  refine congrArg _ (funext fun a => Fin.ext ?_)
  match a with
  | ⟨0, _⟩ => show win0_2.index t (0 : Fin 2) * 128 + 1 * l.val = l.val; rw [e0]; omega
  | ⟨1, _⟩ => show win0_2.index t (1 : Fin 2) * 128 + 1 * q.val = q.val; rw [e1]; omega

/-- adj's window at point t is rows 400·t … of adj. -/
theorem blk3_apply (c : Dev nD) (t : Fin cfg0.N) (r : Fin 400) (k : Fin 10000) (hb : 400 * t.val + r.val < 10000) :
    (iblk m c 3 t : Vec Ideal S400x10000 .f32) (ix2 r k) = argA m c (ix2 ⟨400 * t.val + r.val, hb⟩ k) := by
  obtain ⟨-, -, -, -, -, e0, e1, -⟩ := idx_facts t
  show V m c main_arg1 (((cfg0.win 3).blk t).view.emb (ix2 r k)) = _
  rw [V_main_arg1 m c]
  refine congrArg _ (funext fun a => Fin.ext ?_)
  match a with
  | ⟨0, _⟩ => show win0_3.index t (0 : Fin 2) * 400 + 1 * r.val = 400 * t.val + r.val; rw [e0]; omega
  | ⟨1, _⟩ => show win0_3.index t (1 : Fin 2) * 10000 + 1 * k.val = k.val; rw [e1]; omega

/-- The bias window's block is the bias recast as the row [1, 128]: at (0, q) the bias at q. -/
theorem blk4_apply (c : Dev nD) (t : Fin cfg0.N) (q : Fin 128) :
    (iblk m c 4 t : Vec Ideal S1x128 .f32) (ix2 (0 : Fin 1) q) = argB m c (ix1 q) := by
  obtain ⟨-, -, -, -, -, -, -, e0, e1, -⟩ := idx_facts t
  have e : (V m c main_v1 : S1x128.Idx → EReal) = shapeCast S1x128 (argB m c) shapeCasts_S128_S1x128 := by
    dsimp only [Gen.V, Gen.hostOps0]; after_results; rfl
  show V m c main_v1 (((cfg0.win 4).blk t).view.emb (ix2 (0 : Fin 1) q)) = _
  rw [e]
  refine Eq.trans (congrArg _ (funext fun a => Fin.ext ?_)) (shapeCast_a_1a_apply (argB m c) shapeCasts_S128_S1x128 0 q)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The selector word the body reads is the selector argument. -/
theorem sel_eq (c : Dev nD) (t : Fin cfg0.N) : selAt m c t = argE m c := by
  have e : (V m c main_v0 : S1.Idx → BitVec 32) = shapeCast S1 (m ((c.tc : Thread nD τ).loc main_arg4) : S_.Idx → BitVec 32) shapeCasts_S_S1 := by
    dsimp only [Gen.V, Gen.hostOps0]; after_results; rfl
  unfold selAt
  rw [View.readAt_eq_ld, (hs0 t).read_unread]
  show V m c main_v0 _ = _
  rw [e]
  unfold shapeCast
  exact congrArg _ (eq_ix0 _)

/-- The scratch after the first point is tmp = input · weight. -/
theorem tmp_apply (c : Dev nD) (k : Fin 10000) (q : Fin 128) :
    tmpOf m c (ix2 k q) = Krylov.tmp (argX m c) (argW m c) k q := by
  unfold tmpOf Krylov.tmp
  refine (pay1_apply (iblk m c 1 t0) (iblk m c 2 t0) k q).trans (Finset.sum_congr rfl fun l _ => ?_)
  rw [blk1_apply m c t0 k l, blk2_apply m c t0 l q]

/-! ## What a point writes back is the layer's block -/

/-- Entry (r, q) of what point t leaves in the output's staging buffer is the layer at row 400·t + r. -/
theorem out_entry (c : Dev nD) (t : Fin cfg0.N) (r : Fin 400) (q : Fin 128) (hb : 400 * t.val + r.val < 10000) :
    outAt m c t (ix2 r q) = G m c (ix2 ⟨400 * t.val + r.val, hb⟩ q) := by
  obtain ⟨-, -, -, -, -, -, -, -, -, -, -, eo0, eo1⟩ := idx_facts t
  by_cases h : isDense (selAt m c t)
  · have he : argE m c = 0#32 := by rw [← sel_eq m c t]; exact (isDense_iff _).mp h
    rw [outAt_dense m c t h]
    unfold G
    rw [Krylov.layer_dense _ _ _ _ _ he]
    refine (pay3_apply (iblk m c 3 t) (tmpOf m c) (iblk m c 4 t) r q).trans ?_
    rw [blk4_apply m c t q]
    refine congrArg (· + argB m c (ix1 q)) (Finset.sum_congr rfl fun k _ => ?_)
    rw [blk3_apply m c t r k hb, tmp_apply m c k q]
  · have he : ¬ argE m c = 0#32 := by rw [← sel_eq m c t]; exact fun e => h ((isDense_iff _).mpr e)
    rw [outAt_eye m c t h]
    unfold G
    rw [Krylov.layer_eye _ _ _ _ _ he]
    refine (pay4_apply (iblk m c 4 t) (View.ld (tmpOf m c) (Rect.unit (s := S10000x128) (k0_off1 (grid0.coords t)) S400x128.size (k0_off1_inb (grid0.coords t)))) r q).trans ?_
    rw [blk4_apply m c t q]
    refine congrArg (· + argB m c (ix1 q)) ?_
    refine Eq.trans ?_ (tmp_apply m c ⟨400 * t.val + r.val, hb⟩ q)
    show tmpOf m c ((Rect.unit (s := S10000x128) (k0_off1 (grid0.coords t)) S400x128.size (k0_off1_inb (grid0.coords t))).idx (ix2 r q)) = _
    refine congrArg _ (funext fun a => Fin.ext ?_)
    match a with
    | ⟨0, _⟩ => show k0_off1 (grid0.coords t) (0 : Fin 2) + 1 * r.val = 400 * t.val + r.val; rw [eo0]; omega
    | ⟨1, _⟩ => show k0_off1 (grid0.coords t) (1 : Fin 2) + 1 * q.val = q.val; rw [eo1]; omega

/-- Block t of the result array sits at rows 400·t …. -/
theorem emb5 (t : Fin cfg0.N) (r : Fin 400) (q : Fin 128) (hb : 400 * t.val + r.val < 10000) :
    ((cfg0.win 5).blk t).view.emb (ix2 r q) = (ix2 ⟨400 * t.val + r.val, hb⟩ q : S10000x128.Idx) := by
  obtain ⟨-, -, -, -, -, -, -, -, -, e0, e1, -⟩ := idx_facts t
  refine funext fun a => Fin.ext ?_
  match a with
  | ⟨0, _⟩ => show win0_5.index t (0 : Fin 2) * 400 + 1 * r.val = 400 * t.val + r.val; rw [e0]; omega
  | ⟨1, _⟩ => show win0_5.index t (1 : Fin 2) * 128 + 1 * q.val = q.val; rw [e1]; omega

/-- What point t writes back is block t of the layer. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5 m c t]
  refine funext fun (j : S400x128.Idx) => ?_
  obtain ⟨r, q, rfl⟩ : ∃ (r : Fin 400) (q : Fin 128), j = ix2 r q := ⟨j 0, j 1, eq_ix2 j⟩
  have hN : t.val < 25 := lt_of_lt_of_eq t.isLt (show cfg0.N = 25 from N_0)
  have hb : 400 * t.val + r.val < 10000 := by have := r.isLt; omega
  show outAt m c t (ix2 r q) = G m c (((cfg0.win 5).blk t).view.emb (ix2 r q))
  rw [emb5 t r q hb]
  exact out_entry m c t r q hb

/-- An index of the array is in point t's block iff each coordinate is in the block's range on its axis. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2).slice (win0_5.rect t)).set ↔ _
  rw [View.set_slice_whole, Rect.mem_set_unit]
  exact Iff.rfl

/-- Every row of the result lies in the block of the point row / 400. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 400 < cfg0.N := by rw [show cfg0.N = 25 from N_0]; omega
  obtain ⟨-, -, -, -, -, -, -, -, -, e0, e1, -⟩ := idx_facts ⟨(i 0).val / 400, ht⟩
  refine ⟨⟨(i 0).val / 400, ht⟩, flush0_5 _, ?_⟩
  rw [mem_blk5]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e1]; omega

/-- The result array after the run is the layer. -/
theorem final (c : Dev nD) : (dats m 0 c).arrAt 5 cfg0.N = G m c :=
  (dats m 0 c).arrAt_eq_of_cover 5 (G m c) (fun t _ => flushed_eq m c t) cover5

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.RefSide.lean ====
/-
  The reference computes the layer.

  Its eleven host operations, read at an entry (p, q): the two dot_generals are the plain sums over the contracted
  coordinate, the bias reaches (p, q) through two broadcasts as b q, and the final select on the broadcast comparison
  "selector word ≠ 0" picks tmp + b when the word is not zero and A · tmp + b when it is.
-/
import proofs.«112793_g16724602650838_cont_sun_m_594_23_alg».proof.Proof.Gen.ReferenceIdeal.Run
import proofs.«112793_g16724602650838_cont_sun_m_594_23_alg».proof.Proof.Gen.ReferenceIdeal.Read
import proofs.«112793_g16724602650838_cont_sun_m_594_23_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

theorem lidx_v0 (p : Fin 10000) (q k : Fin 128) : lidx_main_v0 (ix2 p q) k = ix2 p k :=
  funext fun a => Fin.ext (by match a with | ⟨0, _⟩ => rfl | ⟨1, _⟩ => rfl)
theorem ridx_v0 (p : Fin 10000) (q k : Fin 128) : ridx_main_v0 (ix2 p q) k = ix2 k q :=
  funext fun a => Fin.ext (by match a with | ⟨0, _⟩ => rfl | ⟨1, _⟩ => rfl)
theorem lidx_v4 (p : Fin 10000) (q : Fin 128) (k : Fin 10000) : lidx_main_v4 (ix2 p q) k = ix2 p k :=
  funext fun a => Fin.ext (by match a with | ⟨0, _⟩ => rfl | ⟨1, _⟩ => rfl)
theorem ridx_v4 (p : Fin 10000) (q : Fin 128) (k : Fin 10000) : ridx_main_v4 (ix2 p q) k = ix2 k q :=
  funext fun a => Fin.ext (by match a with | ⟨0, _⟩ => rfl | ⟨1, _⟩ => rfl)
theorem idx_v12 (p : Fin 10000) (q : Fin 128) : idx_main_v1 (idx_main_v2 (ix2 p q)) = ix1 q :=
  funext fun a => Fin.ext (by match a with | ⟨0, _⟩ => rfl)
theorem idx_v56 (p : Fin 10000) (q : Fin 128) : idx_main_v5 (idx_main_v6 (ix2 p q)) = ix1 q :=
  funext fun a => Fin.ext (by match a with | ⟨0, _⟩ => rfl)

/-- The reference's last stage is the layer, entry by entry. -/
theorem ref_is_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S_, .i32⟩ : BufTy).Contents (Elt Ideal)) :
    val_main_v9 (F := Ideal) x0 x1 x2 x3 x4 = Krylov.layer x0 x1 x2 x3 (x4 ix0) := by
  funext j
  obtain ⟨p, q, rfl⟩ : ∃ (p : Fin 10000) (q : Fin 128), j = ix2 p q := ⟨j 0, j 1, eq_ix2 j⟩
  unfold val_main_v9
  show Scalar.select (broadcastInDim S10000x128 ![] bcast_S_S10000x128 (val_main_v8 (F := Ideal) x4) (ix2 p q))
    (val_main_v3 (F := Ideal) x0 x2 x3 (ix2 p q)) (val_main_v7 (F := Ideal) x0 x1 x2 x3 (ix2 p q)) = _
  rw [broadcastInDim_apply _ bcast_S_S10000x128 _ (ix2 p q) ix0 (fun a => a.elim0)]
  rw [val_main_v8_apply, val_main_c_apply, val_main_v3_apply, val_main_v7_apply, val_main_v0_apply, val_main_v4_apply,
    val_main_v2_apply, val_main_v1_apply, val_main_v6_apply, val_main_v5_apply]
  simp only [val_main_v0_apply, lidx_v0, ridx_v0, lidx_v4, ridx_v4, idx_v12, idx_v56, Ideal.addf_def]
  by_cases he : x4 ix0 = 0#32
  · rw [Krylov.layer_dense _ _ _ _ _ he, he, show IntOp.cmpi .ne (0#32 : BitVec 32) 0#32 = 0#1 from by decide, select_zero]
    rfl
  · rw [Krylov.layer_eye _ _ _ _ _ he]
    have hb : IntOp.cmpi .ne (x4 ix0) 0#32 = 1#1 := by
      have hb' : (x4 ix0 == 0#32) = false := beq_eq_false_iff_ne.mpr he
      simp only [IntOp.cmpi, bne, hb']; decide
    rw [hb, select_one]
    rfl

end Cert.ReferenceIdeal.RefValue

end
-- ==== Proof.lean ====
/-
  The five claims about the fused truncated-Krylov layer.

  The kernel computes tmp = input · weight once, at the grid's first point, and keeps it in a scratch buffer; every point
  then writes one 400-row block of the result: (adj's rows) · tmp + bias when the selector word is zero, tmp's own rows
  + bias otherwise. The reference computes the same two expressions on whole arrays and selects between them by the same
  word. On the extended reals a cast between float formats is the identity and both kinds of matrix product are the plain
  sum over the contracted coordinate, so the two results agree entry by entry with no algebra beyond reading each side;
  finiteness of the inputs is not used. The frames: each program terminates, without a fault, with its arguments as launched.
  The idealization rewrote nothing, so the kernel and its idealization are one text read at two instances.
-/
import proofs.«112793_g16724602650838_cont_sun_m_594_23_alg».proof.Defs
import proofs.«112793_g16724602650838_cont_sun_m_594_23_alg».proof.Proof.Gen.Kernel
import proofs.«112793_g16724602650838_cont_sun_m_594_23_alg».proof.Proof.Gen.KernelIdeal
import proofs.«112793_g16724602650838_cont_sun_m_594_23_alg».proof.Proof.Gen.ReferenceIdeal
import proofs.«112793_g16724602650838_cont_sun_m_594_23_alg».proof.Proof.Gen.Pre_finite_inputs
import proofs.«112793_g16724602650838_cont_sun_m_594_23_alg».proof.Proof.KData
import proofs.«112793_g16724602650838_cont_sun_m_594_23_alg».proof.Proof.KIValue
import proofs.«112793_g16724602650838_cont_sun_m_594_23_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the layer of the arguments in their result arrays. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_layer,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
